-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512x256 : Shape := ⟨2, ![512, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S10000x512 .f32) (main_arg1 : IVec S2x160000 32) (main_arg2 : FVec F S160000 .f32) (main_arg3 : FVec F S512x512 .f32) (main_arg4 : FVec F S512x256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512x256 : Shape := ⟨2, ![512, 256]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S1000x512 : Shape := ⟨2, ![1000, 512]⟩
abbrev S160000x512 : Shape := ⟨2, ![160000, 512]⟩
abbrev S10000x1 : Shape := ⟨2, ![10000, 1]⟩
abbrev S10000x256 : Shape := ⟨2, ![10000, 256]⟩
abbrev S1000x256 : Shape := ⟨2, ![1000, 256]⟩
abbrev S160000x256 : Shape := ⟨2, ![160000, 256]⟩

abbrev nBuf : Space → Nat
  | .hbm => 85
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S160000, .f32⟩
  | .hbm, ⟨3, _⟩ => ⟨S512x512, .f32⟩
  | .hbm, ⟨4, _⟩ => ⟨S512x256, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S10000, .f32⟩
  | .hbm, ⟨11, _⟩ => ⟨S160000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000, .f32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000, .f32⟩
  | .hbm, ⟨26, _⟩ => ⟨S160000, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000, .f32⟩
  | .hbm, ⟨36, _⟩ => ⟨S160000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x512, .f32⟩
  | .hbm, ⟨41, _⟩ => ⟨S160000x1, .f32⟩
  | .hbm, ⟨42, _⟩ => ⟨S_, .i32⟩
  | .hbm, ⟨43, _⟩ => ⟨S160000, .i32⟩
  | .hbm, ⟨44, _⟩ => ⟨S160000, .i1⟩
  | .hbm, ⟨45, _⟩ => ⟨S_, .i32⟩
  | .hbm, ⟨46, _⟩ => ⟨S160000, .i32⟩
  | .hbm, ⟨47, _⟩ => ⟨S160000, .i32⟩
  | .hbm, ⟨48, _⟩ => ⟨S160000, .i32⟩
  | .hbm, ⟨49, _⟩ => ⟨S160000x1, .i32⟩
  | .hbm, ⟨50, _⟩ => ⟨S160000x512, .f32⟩
  | .hbm, ⟨51, _⟩ => ⟨S160000x512, .f32⟩
  | .hbm, ⟨52, _⟩ => ⟨S160000x512, .f32⟩
  | .hbm, ⟨53, _⟩ => ⟨S_, .f32⟩
  | .hbm, ⟨54, _⟩ => ⟨S10000x512, .f32⟩
  | .hbm, ⟨55, _⟩ => ⟨S160000x1, .i32⟩
  | .hbm, ⟨56, _⟩ => ⟨S10000x512, .f32⟩
  | .hbm, ⟨57, _⟩ => ⟨S10000x1, .f32⟩
  | .hbm, ⟨58, _⟩ => ⟨S10000x512, .f32⟩
  | .hbm, ⟨59, _⟩ => ⟨S10000x512, .f32⟩
  | .hbm, ⟨60, _⟩ => ⟨S10000x512, .f32⟩
  | .hbm, ⟨61, _⟩ => ⟨S_, .f32⟩
  | .hbm, ⟨62, _⟩ => ⟨S10000x512, .f32⟩
  | .hbm, ⟨63, _⟩ => ⟨S10000x512, .f32⟩
  | .hbm, ⟨64, _⟩ => ⟨S10000x256, .f32⟩
  | .hbm, ⟨65, _⟩ => ⟨S160000x1, .f32⟩
  | .hbm, ⟨66, _⟩ => ⟨S_, .i32⟩
  | .hbm, ⟨67, _⟩ => ⟨S160000, .i32⟩
  | .hbm, ⟨68, _⟩ => ⟨S160000, .i1⟩
  | .hbm, ⟨69, _⟩ => ⟨S_, .i32⟩
  | .hbm, ⟨70, _⟩ => ⟨S160000, .i32⟩
  | .hbm, ⟨71, _⟩ => ⟨S160000, .i32⟩
  | .hbm, ⟨72, _⟩ => ⟨S160000, .i32⟩
  | .hbm, ⟨73, _⟩ => ⟨S160000x1, .i32⟩
  | .hbm, ⟨74, _⟩ => ⟨S160000x256, .f32⟩
  | .hbm, ⟨75, _⟩ => ⟨S160000x256, .f32⟩
  | .hbm, ⟨76, _⟩ => ⟨S160000x256, .f32⟩
  | .hbm, ⟨77, _⟩ => ⟨S_, .f32⟩
  | .hbm, ⟨78, _⟩ => ⟨S10000x256, .f32⟩
  | .hbm, ⟨79, _⟩ => ⟨S160000x1, .i32⟩
  | .hbm, ⟨80, _⟩ => ⟨S10000x256, .f32⟩
  | .hbm, ⟨81, _⟩ => ⟨S10000x1, .f32⟩
  | .hbm, ⟨82, _⟩ => ⟨S10000x256, .f32⟩
  | .hbm, ⟨83, _⟩ => ⟨S10000x256, .f32⟩
  | .hbm, ⟨84, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S1000x512_S512x512_S1000x512_1_0_0_1_n_n_wf : DotDims.WF S1000x512 S512x512 S1000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x256_S1000x256_1_0_0_1_n_n_wf : DotDims.WF S1000x512 S512x256 S1000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512x256 : Shape := ⟨2, ![512, 256]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S10000x256 : Shape := ⟨2, ![10000, 256]⟩
abbrev S160000x256 : Shape := ⟨2, ![160000, 256]⟩

abbrev nBuf : Space → Nat
  | .hbm => 116
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S160000, .f32⟩
  | .hbm, ⟨3, _⟩ => ⟨S512x512, .f32⟩
  | .hbm, ⟨4, _⟩ => ⟨S512x256, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S10000x512, .f32⟩
  | .hbm, ⟨10, _⟩ => ⟨S_, .f32⟩
  | .hbm, ⟨11, _⟩ => ⟨S10000, .f32⟩
  | .hbm, ⟨12, _⟩ => ⟨S160000x1, .i32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S160000, .f32⟩
  | .hbm, ⟨27, _⟩ => ⟨S160000, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S160000, .f32⟩
  | .hbm, ⟨37, _⟩ => ⟨S160000, .f32⟩
  | .hbm, ⟨38, _⟩ => ⟨S160000x1, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000x512, .f32⟩
  | .hbm, ⟨48, _⟩ => ⟨S160000x512, .f32⟩
  | .hbm, ⟨49, _⟩ => ⟨S160000x512, .f32⟩
  | .hbm, ⟨50, _⟩ => ⟨S_, .f32⟩
  | .hbm, ⟨51, _⟩ => ⟨S10000x512, .f32⟩
  | .hbm, ⟨52, _⟩ => ⟨S160000x1, .i32⟩
  | .hbm, ⟨53, _⟩ => ⟨S10000x512, .f32⟩
  | .hbm, ⟨54, _⟩ => ⟨S_, .f32⟩
  | .hbm, ⟨55, _⟩ => ⟨S10000, .f32⟩
  | .hbm, ⟨56, _⟩ => ⟨S10000, .f32⟩
  | .hbm, ⟨57, _⟩ => ⟨S10000x1, .f32⟩
  | .hbm, ⟨58, _⟩ => ⟨S10000x512, .f32⟩
  | .hbm, ⟨59, _⟩ => ⟨S10000x512, .f32⟩
  | .hbm, ⟨60, _⟩ => ⟨S10000x512, .f32⟩
  | .hbm, ⟨61, _⟩ => ⟨S_, .f32⟩
  | .hbm, ⟨62, _⟩ => ⟨S10000x512, .f32⟩
  | .hbm, ⟨63, _⟩ => ⟨S10000x512, .f32⟩
  | .hbm, ⟨64, _⟩ => ⟨S10000x256, .f32⟩
  | .hbm, ⟨65, _⟩ => ⟨S_, .f32⟩
  | .hbm, ⟨66, _⟩ => ⟨S10000, .f32⟩
  | .hbm, ⟨67, _⟩ => ⟨S160000x1, .i32⟩
  | .hbm, ⟨68, _⟩ => ⟨S10000, .f32⟩
  | .hbm, ⟨69, _⟩ => ⟨S_, .f32⟩
  | .hbm, ⟨70, _⟩ => ⟨S10000, .f32⟩
  | .hbm, ⟨71, _⟩ => ⟨S10000, .f32⟩
  | .hbm, ⟨72, _⟩ => ⟨S10000, .f32⟩
  | .hbm, ⟨73, _⟩ => ⟨S_, .i32⟩
  | .hbm, ⟨74, _⟩ => ⟨S160000, .i32⟩
  | .hbm, ⟨75, _⟩ => ⟨S160000, .i1⟩
  | .hbm, ⟨76, _⟩ => ⟨S_, .i32⟩
  | .hbm, ⟨77, _⟩ => ⟨S160000, .i32⟩
  | .hbm, ⟨78, _⟩ => ⟨S160000, .i32⟩
  | .hbm, ⟨79, _⟩ => ⟨S160000, .i32⟩
  | .hbm, ⟨80, _⟩ => ⟨S160000x1, .i32⟩
  | .hbm, ⟨81, _⟩ => ⟨S160000, .f32⟩
  | .hbm, ⟨82, _⟩ => ⟨S160000, .f32⟩
  | .hbm, ⟨83, _⟩ => ⟨S_, .i32⟩
  | .hbm, ⟨84, _⟩ => ⟨S160000, .i32⟩
  | .hbm, ⟨85, _⟩ => ⟨S160000, .i1⟩
  | .hbm, ⟨86, _⟩ => ⟨S_, .i32⟩
  | .hbm, ⟨87, _⟩ => ⟨S160000, .i32⟩
  | .hbm, ⟨88, _⟩ => ⟨S160000, .i32⟩
  | .hbm, ⟨89, _⟩ => ⟨S160000, .i32⟩
  | .hbm, ⟨90, _⟩ => ⟨S160000x1, .i32⟩
  | .hbm, ⟨91, _⟩ => ⟨S160000, .f32⟩
  | .hbm, ⟨92, _⟩ => ⟨S160000, .f32⟩
  | .hbm, ⟨93, _⟩ => ⟨S160000x1, .f32⟩
  | .hbm, ⟨94, _⟩ => ⟨S_, .i32⟩
  | .hbm, ⟨95, _⟩ => ⟨S160000, .i32⟩
  | .hbm, ⟨96, _⟩ => ⟨S160000, .i1⟩
  | .hbm, ⟨97, _⟩ => ⟨S_, .i32⟩
  | .hbm, ⟨98, _⟩ => ⟨S160000, .i32⟩
  | .hbm, ⟨99, _⟩ => ⟨S160000, .i32⟩
  | .hbm, ⟨100, _⟩ => ⟨S160000, .i32⟩
  | .hbm, ⟨101, _⟩ => ⟨S160000x1, .i32⟩
  | .hbm, ⟨102, _⟩ => ⟨S160000x256, .f32⟩
  | .hbm, ⟨103, _⟩ => ⟨S160000x256, .f32⟩
  | .hbm, ⟨104, _⟩ => ⟨S160000x256, .f32⟩
  | .hbm, ⟨105, _⟩ => ⟨S_, .f32⟩
  | .hbm, ⟨106, _⟩ => ⟨S10000x256, .f32⟩
  | .hbm, ⟨107, _⟩ => ⟨S160000x1, .i32⟩
  | .hbm, ⟨108, _⟩ => ⟨S10000x256, .f32⟩
  | .hbm, ⟨109, _⟩ => ⟨S_, .f32⟩
  | .hbm, ⟨110, _⟩ => ⟨S10000, .f32⟩
  | .hbm, ⟨111, _⟩ => ⟨S10000, .f32⟩
  | .hbm, ⟨112, _⟩ => ⟨S10000x1, .f32⟩
  | .hbm, ⟨113, _⟩ => ⟨S10000x256, .f32⟩
  | .hbm, ⟨114, _⟩ => ⟨S10000x256, .f32⟩
  | .hbm, ⟨115, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  dot_S10000x512_S512x512_S10000x512_1_0_0_1_n_n_wf : DotDims.WF S10000x512 S512x512 S10000x512 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x256_S10000x256_1_0_0_1_n_n_wf : DotDims.WF S10000x512 S512x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.KernelRun.lean ====
/-
  The idealized kernel's run with the result array named.

  The program is six segments — host operations, the first row-blocked matrix product, host operations, the rectifier,
  the second row-blocked matrix product, host operations — and the buffer contents at each boundary are a fold from the
  launch memory.  Every weakly fair execution ends with each buffer at the last boundary's contents; in particular the
  result array holds the last stretch of host operations applied to what the second product left.
-/
import proofs.«158690_j36429912604731_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a state where every buffer that outlives the kernels
    holds the last boundary's contents: whatever follows from that holds of the final state. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result named: the result array ends at the last boundary's contents of its buffer, and the
    arguments end as launched. -/
theorem run_result : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_boundary m ρ fun s h c =>
    ⟨h c _ (mem_uc main_v64 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.KernelIdeal.Hand

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.RowBlocks.lean ====
/-
  The two row-blocked matrix products of the idealized kernel.

  Each kernel region walks the rows of its left operand in ten blocks of 1000 rows; at a block it holds the block's
  1000 rows and the whole right operand, multiplies them on the matrix unit into a zero accumulator, and writes the
  1000 result rows back.  On the extended reals entry (p, q) of a block's product is the sum over j of
  left(p, j) · right(j, q) — rounding the operands to bf16 first changes nothing there —, so the ten blocks written
  back tile the result array with the rows of ONE product: the array ends holding, at (r, q), the sum over j of
  left(r, j) · right(j, q), which is also what the host's contraction of the same operands holds.
-/
import proofs.«158690_j36429912604731_1_alg».proof.Proof.Gen.KernelIdeal.Frame
import proofs.«158690_j36429912604731_1_alg».proof.Proof.Gen.ReferenceIdeal.Read
import proofs.«158690_j36429912604731_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The product of an [n, k] and a [k, b] array of extended reals, entry by entry. -/
def matProd {n k b : ℕ} (A : FVec Ideal ⟨2, ![n, k]⟩ .f32) (B : FVec Ideal ⟨2, ![k, b]⟩ .f32) : FVec Ideal ⟨2, ![n, b]⟩ .f32 :=
  fun i => ∑ j : Fin k, A (ix2 (i 0) j) * B (ix2 j (i 1))

theorem hz : (![0, 0] : Fin 2 → Nat) = fun _ => 0 := funext fun a => by fin_cases a <;> rfl

/-! ## The first product: [10000, 512] × [512, 512] -/

/-- A block's product at entry (p, q). -/
theorem block0_apply (x0 : Vec Ideal S1000x512 .f32) (x1 : Vec Ideal S512x512 .f32) (p : Fin 1000) (q : Fin 512) :
    k0_pay1 (F := Ideal) x0 x1 (ix2 p q) = ∑ j : Fin 512, x0 (ix2 p j) * x1 (ix2 j q) := by
  unfold k0_pay1
  exact PlainDot.matmul_zero_apply dot_S1000x512_S512x512_S1000x512_1_0_0_1_n_n none rfl rfl
    (fun i q => by
      unfold DotDims.lhsIdx
      rw [dif_neg (show ¬(0 : Fin S1000x512.rank) ∈ dot_S1000x512_S512x512_S1000x512_1_0_0_1_n_n.lhsBatch by decide),
        dif_pos (show (0 : Fin S1000x512.rank) ∈ dot_S1000x512_S512x512_S1000x512_1_0_0_1_n_n.lhsNonContracting by decide)]
      rfl)
    (fun i q => dot_S1000x512_S512x512_S1000x512_1_0_0_1_n_n.lhsIdx_val_of_single rfl i q)
    (fun i q => dot_S1000x512_S512x512_S1000x512_1_0_0_1_n_n.rhsIdx_val_of_single rfl i q)
    (fun i q => by
      unfold DotDims.rhsIdx
      rw [dif_neg (show ¬(1 : Fin S512x512.rank) ∈ dot_S1000x512_S512x512_S1000x512_1_0_0_1_n_n.rhsBatch by decide),
        dif_pos (show (1 : Fin S512x512.rank) ∈ dot_S1000x512_S512x512_S1000x512_1_0_0_1_n_n.rhsNonContracting by decide)]
      rfl)
    (truncf .bf16 x0 bitsLt_bf16_f32) (truncf .bf16 x1 bitsLt_bf16_f32) p q

/-- A block's product at (p, q) is the whole product at the index `i` of the array, when the block's row `p` is the
    array's row `i 0`, the right operands agree and `q` is the column `i 1`. -/
theorem block0_eq (x0 : Vec Ideal S1000x512 .f32) (x1 : Vec Ideal S512x512 .f32)
    (A : Vec Ideal S10000x512 .f32) (B : Vec Ideal S512x512 .f32) (p : Fin 1000) (q : Fin 512) (i : S10000x512.Idx)
    (hrow : ∀ k : Fin 512, x0 (ix2 p k) = A (ix2 (i 0) k)) (hB : x1 = B) (hcol : q = i 1) :
    k0_pay1 (F := Ideal) x0 x1 (ix2 p q) = matProd (n := 10000) (k := 512) (b := 512) A B i := by
  rw [block0_apply]
  unfold matProd
  subst hB hcol
  exact Finset.sum_congr rfl fun k _ => by rw [hrow k]

section Region0

variable (V : (c : Dev nD) → (b : Ref sig .tc) → Buf (Elt Ideal) ((c : Thread nD τ).loc b))

/-- The index maps over the grid: the left operand's and the result's block at point `t` is row block `t`, the right
    operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushed0_eq (c : Dev nD) (t : Fin cfg0.N) :
    (dat0 V c).flushed 2 t = ((cfg0.win 2).blk t).view.read (Elt Ideal)
      (matProd (n := 10000) (k := 512) (b := 512) (V c main_arg0) (V c main_arg3)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  obtain ⟨e0, e1, e2, e3, e4, e5⟩ := idx_facts0 t
  funext j
  obtain ⟨p, q, rfl⟩ : ∃ (p : Fin 1000) (q : Fin 512), j = ix2 p q := ⟨j 0, j 1, eq_ix2 j⟩
  refine block0_eq _ _ (V c main_arg0) (V c main_arg3) p q (((cfg0.win 2).blk t).view.emb (ix2 p q)) (fun k => ?_) ?_ ?_
  · show V c main_arg0 (((cfg0.win 0).blk t).view.emb (ix2 p k)) = V c main_arg0 (ix2 ((((cfg0.win 2).blk t).view.emb (ix2 p q)) 0) k)
    have h : ((cfg0.win 0).blk t).view.emb (ix2 p k) = ix2 ((((cfg0.win 2).blk t).view.emb (ix2 p q)) 0) k := by
      funext a; apply Fin.ext
      match a with
      | ⟨0, _⟩ => show win0_0.index t (0 : Fin 2) * 1000 + 1 * p.val = win0_2.index t (0 : Fin 2) * 1000 + 1 * p.val; omega
      | ⟨1, _⟩ => show win0_0.index t (1 : Fin 2) * 512 + 1 * k.val = k.val; omega
    exact congrArg (V c main_arg0) h
  · funext y
    show V c main_arg3 (((cfg0.win 1).blk t).view.emb y) = V c main_arg3 y
    have h : ((cfg0.win 1).blk t).view.emb y = y := by
      funext a; apply Fin.ext
      match a with
      | ⟨0, _⟩ => show win0_1.index t (0 : Fin 2) * 512 + 1 * (y 0).val = (y 0).val; omega
      | ⟨1, _⟩ => show win0_1.index t (1 : Fin 2) * 512 + 1 * (y 1).val = (y 1).val; omega
    exact congrArg (V c main_arg3) h
  · apply Fin.ext
    show q.val = win0_2.index t (1 : Fin 2) * 512 + 1 * q.val
    omega

/-- An index of the result array is in point `t`'s block iff each coordinate is in the block's range on its axis. -/
theorem mem_blk0 (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v28).slice (win0_2.rect t)).set ↔ _
  rw [View.set_slice_whole, Rect.mem_set_unit]
  exact Iff.rfl

/-- Row `r` of the result is written back by the point `r / 1000`. -/
theorem cover0 (i : S10000x512.Idx) : ∃ t : Fin cfg0.N, (cfg0.win 2).flush t = true ∧ i ∈ ((cfg0.win 2).blk t).view.set := by
  have hN : grid0.N = 10 := N_0
  have hi0 : (i 0).val < 10000 := (i 0).isLt
  have hi1 : (i 1).val < 512 := (i 1).isLt
  have ht : (i 0).val / 1000 < cfg0.N := by show (i 0).val / 1000 < grid0.N; rw [hN]; omega
  obtain ⟨-, -, -, -, e4, e5⟩ := idx_facts0 ⟨(i 0).val / 1000, ht⟩
  refine ⟨⟨(i 0).val / 1000, ht⟩, flush0_2 _, ?_⟩
  rw [mem_blk0]
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 512 ≤ (i 1).val ∧ (i 1).val < win0_2.index ⟨(i 0).val / 1000, ht⟩ (1 : Fin 2) * 512 + 512
    rw [e5]; omega

/-- THE FIRST PRODUCT: after the region its result array holds the product of its two operand arrays. -/
theorem product0 (c : Dev nD) :
    (dat0 V c).arrAt 2 cfg0.N = matProd (n := 10000) (k := 512) (b := 512) (V c main_arg0) (V c main_arg3) :=
  (dat0 V c).arrAt_eq_of_cover 2 _ (fun t _ => flushed0_eq V c t) cover0

end Region0

/-! ## The second product: [10000, 512] × [512, 256] -/

/-- A block's product at entry (p, q). -/
theorem block1_apply (x0 : Vec Ideal S1000x512 .f32) (x1 : Vec Ideal S512x256 .f32) (p : Fin 1000) (q : Fin 256) :
    k1_pay1 (F := Ideal) x0 x1 (ix2 p q) = ∑ j : Fin 512, x0 (ix2 p j) * x1 (ix2 j q) := by
  unfold k1_pay1
  rw [shapeCast_self]
  exact PlainDot.matmul_zero_apply dot_S1000x512_S512x256_S1000x256_1_0_0_1_n_n none rfl rfl
    (fun i q => by
      unfold DotDims.lhsIdx
      rw [dif_neg (show ¬(0 : Fin S1000x512.rank) ∈ dot_S1000x512_S512x256_S1000x256_1_0_0_1_n_n.lhsBatch by decide),
        dif_pos (show (0 : Fin S1000x512.rank) ∈ dot_S1000x512_S512x256_S1000x256_1_0_0_1_n_n.lhsNonContracting by decide)]
      rfl)
    (fun i q => dot_S1000x512_S512x256_S1000x256_1_0_0_1_n_n.lhsIdx_val_of_single rfl i q)
    (fun i q => dot_S1000x512_S512x256_S1000x256_1_0_0_1_n_n.rhsIdx_val_of_single rfl i q)
    (fun i q => by
      unfold DotDims.rhsIdx
      rw [dif_neg (show ¬(1 : Fin S512x256.rank) ∈ dot_S1000x512_S512x256_S1000x256_1_0_0_1_n_n.rhsBatch by decide),
        dif_pos (show (1 : Fin S512x256.rank) ∈ dot_S1000x512_S512x256_S1000x256_1_0_0_1_n_n.rhsNonContracting by decide)]
      rfl)
    (truncf .bf16 x0 bitsLt_bf16_f32) (truncf .bf16 x1 bitsLt_bf16_f32) p q

/-- A block's product at (p, q) is the whole product at the index `i` of the array, when the block's row `p` is the
    array's row `i 0`, the right operands agree and `q` is the column `i 1`. -/
theorem block1_eq (x0 : Vec Ideal S1000x512 .f32) (x1 : Vec Ideal S512x256 .f32)
    (A : Vec Ideal S10000x512 .f32) (B : Vec Ideal S512x256 .f32) (p : Fin 1000) (q : Fin 256) (i : S10000x256.Idx)
    (hrow : ∀ k : Fin 512, x0 (ix2 p k) = A (ix2 (i 0) k)) (hB : x1 = B) (hcol : q = i 1) :
    k1_pay1 (F := Ideal) x0 x1 (ix2 p q) = matProd (n := 10000) (k := 512) (b := 256) A B i := by
  rw [block1_apply]
  unfold matProd
  subst hB hcol
  exact Finset.sum_congr rfl fun k _ => by rw [hrow k]

section Region1

variable (V : (c : Dev nD) → (b : Ref sig .tc) → Buf (Elt Ideal) ((c : Thread nD τ).loc b))

/-- The index maps over the grid: the left operand's and the result's block at point `t` is row block `t`, the right
    operand's block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two operand arrays as the region finds them. -/
theorem flushed1_eq (c : Dev nD) (t : Fin cfg1.N) :
    (dat1 V c).flushed 2 t = ((cfg1.win 2).blk t).view.read (Elt Ideal)
      (matProd (n := 10000) (k := 512) (b := 256) (V c main_v46) (V c main_arg4)) := by
  show (cfg1.win 2).cut (grid1.coords t) ((dat1 V c).after 2 t) = _
  rw [after1_2]
  unfold out1_2
  rw [View.canon_unit_zero hz]
  simp only [View.ld_unit_zero (S := S1000x512) hz, View.ld_unit_zero (S := S512x256) hz]
  obtain ⟨e0, e1, e2, e3, e4, e5⟩ := idx_facts1 t
  funext j
  obtain ⟨p, q, rfl⟩ : ∃ (p : Fin 1000) (q : Fin 256), j = ix2 p q := ⟨j 0, j 1, eq_ix2 j⟩
  refine block1_eq _ _ (V c main_v46) (V c main_arg4) p q (((cfg1.win 2).blk t).view.emb (ix2 p q)) (fun k => ?_) ?_ ?_
  · show V c main_v46 (((cfg1.win 0).blk t).view.emb (ix2 p k)) = V c main_v46 (ix2 ((((cfg1.win 2).blk t).view.emb (ix2 p q)) 0) k)
    have h : ((cfg1.win 0).blk t).view.emb (ix2 p k) = ix2 ((((cfg1.win 2).blk t).view.emb (ix2 p q)) 0) k := by
      funext a; apply Fin.ext
      match a with
      | ⟨0, _⟩ => show win1_0.index t (0 : Fin 2) * 1000 + 1 * p.val = win1_2.index t (0 : Fin 2) * 1000 + 1 * p.val; omega
      | ⟨1, _⟩ => show win1_0.index t (1 : Fin 2) * 512 + 1 * k.val = k.val; omega
    exact congrArg (V c main_v46) h
  · funext y
    show V c main_arg4 (((cfg1.win 1).blk t).view.emb y) = V c main_arg4 y
    have h : ((cfg1.win 1).blk t).view.emb y = y := by
      funext a; apply Fin.ext
      match a with
      | ⟨0, _⟩ => show win1_1.index t (0 : Fin 2) * 512 + 1 * (y 0).val = (y 0).val; omega
      | ⟨1, _⟩ => show win1_1.index t (1 : Fin 2) * 256 + 1 * (y 1).val = (y 1).val; omega
    exact congrArg (V c main_arg4) h
  · apply Fin.ext
    show q.val = win1_2.index t (1 : Fin 2) * 256 + 1 * q.val
    omega

/-- An index of the result array is in point `t`'s block iff each coordinate is in the block's range on its axis. -/
theorem mem_blk1 (t : Fin cfg1.N) (i : S10000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v47).slice (win1_2.rect t)).set ↔ _
  rw [View.set_slice_whole, Rect.mem_set_unit]
  exact Iff.rfl

/-- Row `r` of the result is written back by the point `r / 1000`. -/
theorem cover1 (i : S10000x256.Idx) : ∃ t : Fin cfg1.N, (cfg1.win 2).flush t = true ∧ i ∈ ((cfg1.win 2).blk t).view.set := by
  have hN : grid1.N = 10 := N_1
  have hi0 : (i 0).val < 10000 := (i 0).isLt
  have hi1 : (i 1).val < 256 := (i 1).isLt
  have ht : (i 0).val / 1000 < cfg1.N := by show (i 0).val / 1000 < grid1.N; rw [hN]; omega
  obtain ⟨-, -, -, -, e4, e5⟩ := idx_facts1 ⟨(i 0).val / 1000, ht⟩
  refine ⟨⟨(i 0).val / 1000, ht⟩, flush1_2 _, ?_⟩
  rw [mem_blk1]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win1_2.index ⟨(i 0).val / 1000, ht⟩ (1 : Fin 2) * 256 ≤ (i 1).val ∧ (i 1).val < win1_2.index ⟨(i 0).val / 1000, ht⟩ (1 : Fin 2) * 256 + 256
    rw [e5]; omega

/-- THE SECOND PRODUCT: after the region its result array holds the product of its two operand arrays. -/
theorem product1 (c : Dev nD) :
    (dat1 V c).arrAt 2 cfg1.N = matProd (n := 10000) (k := 512) (b := 256) (V c main_v46) (V c main_arg4) :=
  (dat1 V c).arrAt_eq_of_cover 2 _ (fun t _ => flushed1_eq V c t) cover1

end Region1

/-! ## The host's contraction of the same operands is the same product -/

theorem hostDot512 (A : FVec Ideal Cert.ReferenceIdeal.S10000x512 .f32) (B : FVec Ideal Cert.ReferenceIdeal.S512x512 .f32) :
    Host.dotGeneral Cert.ReferenceIdeal.dot_S10000x512_S512x512_S10000x512_1_0_0_1_n_n none A B
      = matProd (n := 10000) (k := 512) (b := 512) A B := by
  funext i
  obtain ⟨p, q, rfl⟩ : ∃ (p : Fin 10000) (q : Fin 512), i = ix2 p q := ⟨i 0, i 1, eq_ix2 i⟩
  exact PlainDot.dotGeneral_apply Cert.ReferenceIdeal.dot_S10000x512_S512x512_S10000x512_1_0_0_1_n_n none rfl rfl
    Cert.ReferenceIdeal.Read.lhs_main_v4_0 Cert.ReferenceIdeal.Read.lhs_main_v4_1
    Cert.ReferenceIdeal.Read.rhs_main_v4_0 Cert.ReferenceIdeal.Read.rhs_main_v4_1 A B p q

theorem hostDot256 (A : FVec Ideal Cert.ReferenceIdeal.S10000x512 .f32) (B : FVec Ideal Cert.ReferenceIdeal.S512x256 .f32) :
    Host.dotGeneral Cert.ReferenceIdeal.dot_S10000x512_S512x256_S10000x256_1_0_0_1_n_n none A B
      = matProd (n := 10000) (k := 512) (b := 256) A B := by
  funext i
  obtain ⟨p, q, rfl⟩ : ∃ (p : Fin 10000) (q : Fin 256), i = ix2 p q := ⟨i 0, i 1, eq_ix2 i⟩
  exact PlainDot.dotGeneral_apply Cert.ReferenceIdeal.dot_S10000x512_S512x256_S10000x256_1_0_0_1_n_n none rfl rfl
    Cert.ReferenceIdeal.Read.lhs_main_v47_0 Cert.ReferenceIdeal.Read.lhs_main_v47_1
    Cert.ReferenceIdeal.Read.rhs_main_v47_0 Cert.ReferenceIdeal.Read.rhs_main_v47_1 A B p q

end Cert.KernelIdeal.Hand

end
-- ==== Proof.GraphConv.lean ====
/-
  A two-layer graph convolution, as one function of its five arguments.

  The graph has 10000 nodes and 160000 weighted edges; row 0 of the edge list names each edge's source node, row 1
  its destination.  A node's degree is 1 (its self-loop) plus the sum of the weights of the edges arriving at it.
  One propagation of node features `h` sends, along every edge `e`, the row `h[src e]` scaled by
  `deg(src e)^(-1/2) · w e · deg(dst e)^(-1/2)` to the row of `dst e`, adds what arrives at each node, and adds the
  node's own row divided by its degree.  The network is

      propagate ((relu (propagate (x · W1))) · W2).

  Everything below is spelt with the host operations themselves (slice, reshape, scatter-add, gather, broadcast),
  so that a node index outside the graph is treated exactly as those operations treat it; nothing here evaluates them.
  The two matrix products are arguments of `network`'s parts, so the same parts describe a program whichever way
  it computes the products.
-/
import proofs.«158690_j36429912604731_1_alg».proof.Proof.Gen.ReferenceIdeal

noncomputable section

namespace Cert.GraphConv

open Idealize.ShloMosaic Cert.ReferenceIdeal Cert.ReferenceIdeal.Gen

variable {F : FTy → Type} [FloatOps F]

/-- The contents of an array of shape `S` and element type `e`. -/
abbrev Arr (F : FTy → Type) [FloatOps F] (S : Shape) (e : EltTy) : Type := (⟨S, e⟩ : BufTy).Contents (Elt F)

/-- Each edge's source node: row 0 of the edge list. -/
def srcOf (ei : Arr F S2x160000 .i32) : Arr F S160000 .i32 :=
  shapeCast S160000 (extractStridedSlice S1x160000 ![0, 0] ei slices_S2x160000_S1x160000_0_0) shapeCasts_S1x160000_S160000

/-- Each edge's destination node: row 1 of the edge list. -/
def dstOf (ei : Arr F S2x160000 .i32) : Arr F S160000 .i32 :=
  shapeCast S160000 (extractStridedSlice S1x160000 ![1, 0] ei slices_S2x160000_S1x160000_1_0) shapeCasts_S1x160000_S160000

/-- A list of node indices as a column of indices to read rows at: a negative index counts from the end. -/
def readAt (s : Arr F S160000 .i32) : Arr F S160000x1 .i32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- A list of node indices as a column of indices to add rows at. -/
def addAt (d : Arr F S160000 .i32) : Arr F S160000x1 .i32 :=
  broadcastInDim S160000x1 ![0] bcast_S160000_S160000x1_0 d

/-- A node's degree: its self-loop's weight 1 plus the weights of the edges arriving at it. -/
def degree (d : Arr F S160000 .i32) (w : Arr F S160000 .f32) : Arr F S10000 .f32 :=
  addf (Host.scatterAdd scatter_S10000_S160000x1_S160000_n_0_0_1
      (broadcastInDim S10000 ![] bcast_S_S10000 (constant S_ .f32 0x00000000#32)) (addAt d) w)
    (broadcastInDim S10000 ![] bcast_S_S10000 (constant S_ .f32 0x3F800000#32))

/-- An edge's normalised weight: `deg(src)^(-1/2) · w · deg(dst)^(-1/2)`. -/
def edgeNorm (s d : Arr F S160000 .i32) (w : Arr F S160000 .f32) : Arr F S160000 .f32 :=
  mulf (mulf (Host.gather gather_S10000_S160000x1_S160000_n_0_n_n_0_1_1 (Host.rsqrt (degree d w)) (readAt s)) w)
    (Host.gather gather_S10000_S160000x1_S160000_n_0_n_n_0_1_1 (Host.rsqrt (degree d w)) (readAt d))

/-- A node's self-loop weight after normalisation: `1 / deg`. -/
def selfNorm (d : Arr F S160000 .i32) (w : Arr F S160000 .f32) : Arr F S10000 .f32 :=
  Host.divf (broadcastInDim S10000 ![] bcast_S_S10000 (constant S_ .f32 0x3F800000#32)) (degree d w)

/-- One propagation of 512 features per node: the edges' scaled source rows added at their destinations, plus each
    node's own row times its self-loop weight. -/
def propagate512 (nrm : Arr F S160000 .f32) (s d : Arr F S160000 .i32) (slf : Arr F S10000 .f32)
    (h : Arr F S10000x512 .f32) : Arr F S10000x512 .f32 :=
  addf (Host.scatterAdd scatter_S10000x512_S160000x1_S160000x512_1_0_0_1
      (broadcastInDim S10000x512 ![] bcast_S_S10000x512 (constant S_ .f32 0x00000000#32)) (addAt d)
      (mulf (broadcastInDim S160000x512 ![0, 1] bcast_S160000x1_S160000x512_0_1
          (broadcastInDim S160000x1 ![0] bcast_S160000_S160000x1_0 nrm))
        (Host.gather gather_S10000x512_S160000x1_S160000x512_1_0_n_n_0_1_1512 h (readAt s))))
    (mulf h (broadcastInDim S10000x512 ![0, 1] bcast_S10000x1_S10000x512_0_1
      (broadcastInDim S10000x1 ![0] bcast_S10000_S10000x1_0 slf)))

/-- The same propagation of 256 features per node. -/
def propagate256 (nrm : Arr F S160000 .f32) (s d : Arr F S160000 .i32) (slf : Arr F S10000 .f32)
    (h : Arr F S10000x256 .f32) : Arr F S10000x256 .f32 :=
  addf (Host.scatterAdd scatter_S10000x256_S160000x1_S160000x256_1_0_0_1
      (broadcastInDim S10000x256 ![] bcast_S_S10000x256 (constant S_ .f32 0x00000000#32)) (addAt d)
      (mulf (broadcastInDim S160000x256 ![0, 1] bcast_S160000x1_S160000x256_0_1
          (broadcastInDim S160000x1 ![0] bcast_S160000_S160000x1_0 nrm))
        (Host.gather gather_S10000x256_S160000x1_S160000x256_1_0_n_n_0_1_1256 h (readAt s))))
    (mulf h (broadcastInDim S10000x256 ![0, 1] bcast_S10000x1_S10000x256_0_1
      (broadcastInDim S10000x1 ![0] bcast_S10000_S10000x1_0 slf)))

/-- The rectifier: the maximum with zero, entry by entry. -/
def relu (h : Arr F S10000x512 .f32) : Arr F S10000x512 .f32 :=
  maximumf h (broadcastInDim S10000x512 ![] bcast_S_S10000x512 (constant S_ .f32 0x00000000#32))

/-- The hidden layer, from the first product `x · W1`. -/
def hidden (ei : Arr F S2x160000 .i32) (w : Arr F S160000 .f32) (xw : Arr F S10000x512 .f32) : Arr F S10000x512 .f32 :=
  relu (propagate512 (edgeNorm (srcOf ei) (dstOf ei) w) (srcOf ei) (dstOf ei) (selfNorm (dstOf ei) w) xw)

/-- The output layer, from the second product `hidden · W2`. -/
def output (ei : Arr F S2x160000 .i32) (w : Arr F S160000 .f32) (hw : Arr F S10000x256 .f32) : Arr F S10000x256 .f32 :=
  propagate256 (edgeNorm (srcOf ei) (dstOf ei) w) (srcOf ei) (dstOf ei) (selfNorm (dstOf ei) w) hw

/-- The network: both products as the host's contraction of the left operand's columns with the right operand's rows. -/
def network (x : Arr F S10000x512 .f32) (ei : Arr F S2x160000 .i32) (w : Arr F S160000 .f32)
    (W1 : Arr F S512x512 .f32) (W2 : Arr F S512x256 .f32) : Arr F S10000x256 .f32 :=
  output ei w (Host.dotGeneral dot_S10000x512_S512x256_S10000x256_1_0_0_1_n_n none
    (hidden ei w (Host.dotGeneral dot_S10000x512_S512x512_S10000x512_1_0_0_1_n_n none x W1)) W2)

end Cert.GraphConv

end
-- ==== Proof.KernelNetwork.lean ====
/-
  The idealized kernel computes the network of `GraphConv`.

  Its first stretch of host operations computes, once, each edge's source and destination, the normalised edge weights
  and the self-loop weights.  The first region leaves the product x · W1 (`RowBlocks`); the second stretch propagates
  it and the rectifier follows; the second region leaves the product of that with W2; the last stretch propagates
  again.  The intermediates of the first stretch are read again by the later stretches: no operation and no region
  in between writes them, so they are still what the first stretch computed.  Put together, the result buffer at the
  last boundary is `network` of the five arguments, the host's contraction being the same product (`RowBlocks`).
-/
import proofs.«158690_j36429912604731_1_alg».proof.Proof.Gen.KernelIdeal.Frame
import proofs.«158690_j36429912604731_1_alg».proof.Proof.RowBlocks
import proofs.«158690_j36429912604731_1_alg».proof.Proof.GraphConv
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.GraphConv

variable (m : (ℓ : Loc nD τ sig) → Buf (Elt Ideal) ℓ) (ρ : Dev nD → PrngReg) (c : Dev nD)

/-- No operation of a stretch writes the buffer: each operation's result buffer is another one. -/
local macro "not_written" : tactic => `(tactic| (
  refine List.forall_iff_forall_mem.mp ?_
  simp only [hostOps0, hostOps1, hostOps1_1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## A buffer nobody writes after the first stretch keeps the first stretch's contents -/

theorem W4_eq_W1 (b : Ref sig .tc) (hb0 : ∀ w, Pipeline.arrRef spec0 w ≠ b)
    (h1 : ∀ op ∈ (hostOps1 : List (HloOp τ sig (Elt Ideal))), Proc.devRef .tc b ∉ op.writes)
    (h11 : ∀ op ∈ (hostOps1_1 : List (HloOp τ sig (Elt Ideal))), Proc.devRef .tc b ∉ op.writes) :
    W4 m ρ c (Proc.devRef .tc b) = W1 m ρ c (Proc.devRef .tc b) :=
  (StableHlo.after_of_forall_not_mem (b := Proc.devRef .tc b) _ _ h11).trans
    ((StableHlo.after_of_forall_not_mem (b := Proc.devRef .tc b) _ _ h1).trans (W2_of_ne m ρ c b hb0))

theorem W5_eq_W1 (b : Ref sig .tc) (hb0 : ∀ w, Pipeline.arrRef spec0 w ≠ b) (hb1 : ∀ w, Pipeline.arrRef spec1 w ≠ b)
    (h1 : ∀ op ∈ (hostOps1 : List (HloOp τ sig (Elt Ideal))), Proc.devRef .tc b ∉ op.writes)
    (h11 : ∀ op ∈ (hostOps1_1 : List (HloOp τ sig (Elt Ideal))), Proc.devRef .tc b ∉ op.writes) :
    W5 m ρ c (Proc.devRef .tc b) = W1 m ρ c (Proc.devRef .tc b) :=
  (W5_of_ne m ρ c b hb1).trans (W4_eq_W1 m ρ c b hb0 h1 h11)

/-! ## The first stretch -/

theorem src_at1 : W1 m ρ c (Proc.devRef .tc main_v1) = srcOf (m ((c : Thread nD τ).loc main_arg1)) := by
  show StableHlo.after hostOps0 (W0 m ρ c) (Proc.devRef .tc main_v1) = _
  after_results_simp
  rfl

theorem dst_at1 : W1 m ρ c (Proc.devRef .tc main_v3) = dstOf (m ((c : Thread nD τ).loc main_arg1)) := by
  show StableHlo.after hostOps0 (W0 m ρ c) (Proc.devRef .tc main_v3) = _
  after_results_simp
  rfl

theorem norm_at1 : W1 m ρ c (Proc.devRef .tc main_v25)
    = edgeNorm (srcOf (m ((c : Thread nD τ).loc main_arg1))) (dstOf (m ((c : Thread nD τ).loc main_arg1)))
        (m ((c : Thread nD τ).loc main_arg2)) := by
  show StableHlo.after hostOps0 (W0 m ρ c) (Proc.devRef .tc main_v25) = _
  after_results_simp
  rfl

theorem self_at1 : W1 m ρ c (Proc.devRef .tc main_v27)
    = selfNorm (dstOf (m ((c : Thread nD τ).loc main_arg1))) (m ((c : Thread nD τ).loc main_arg2)) := by
  show StableHlo.after hostOps0 (W0 m ρ c) (Proc.devRef .tc main_v27) = _
  after_results_simp
  rfl

theorem arg0_at1 : W1 m ρ c (Proc.devRef .tc main_arg0) = m ((c : Thread nD τ).loc main_arg0) :=
  StableHlo.after_of_forall_not_mem (b := Proc.devRef .tc main_arg0) _ _ (by not_written)

theorem arg3_at1 : W1 m ρ c (Proc.devRef .tc main_arg3) = m ((c : Thread nD τ).loc main_arg3) :=
  StableHlo.after_of_forall_not_mem (b := Proc.devRef .tc main_arg3) _ _ (by not_written)

theorem arg4_at1 : W1 m ρ c (Proc.devRef .tc main_arg4) = m ((c : Thread nD τ).loc main_arg4) :=
  StableHlo.after_of_forall_not_mem (b := Proc.devRef .tc main_arg4) _ _ (by not_written)

/-! ## After the first region: the first stretch's values, and x · W1 -/

theorem src_at2 : W2 m ρ c (Proc.devRef .tc main_v1) = srcOf (m ((c : Thread nD τ).loc main_arg1)) :=
  (W2_of_ne m ρ c main_v1 (by decide)).trans (src_at1 m ρ c)

theorem dst_at2 : W2 m ρ c (Proc.devRef .tc main_v3) = dstOf (m ((c : Thread nD τ).loc main_arg1)) :=
  (W2_of_ne m ρ c main_v3 (by decide)).trans (dst_at1 m ρ c)

theorem norm_at2 : W2 m ρ c (Proc.devRef .tc main_v25)
    = edgeNorm (srcOf (m ((c : Thread nD τ).loc main_arg1))) (dstOf (m ((c : Thread nD τ).loc main_arg1)))
        (m ((c : Thread nD τ).loc main_arg2)) :=
  (W2_of_ne m ρ c main_v25 (by decide)).trans (norm_at1 m ρ c)

theorem self_at2 : W2 m ρ c (Proc.devRef .tc main_v27)
    = selfNorm (dstOf (m ((c : Thread nD τ).loc main_arg1))) (m ((c : Thread nD τ).loc main_arg2)) :=
  (W2_of_ne m ρ c main_v27 (by decide)).trans (self_at1 m ρ c)

theorem prod_at2 : W2 m ρ c (Proc.devRef .tc main_v28)
    = matProd (n := 10000) (k := 512) (b := 512) (m ((c : Thread nD τ).loc main_arg0)) (m ((c : Thread nD τ).loc main_arg3)) :=
  (W2_arr m ρ c 2).trans ((product0 (V1 m ρ) c).trans (by
    show matProd (n := 10000) (k := 512) (b := 512) (W1 m ρ c (Proc.devRef .tc main_arg0)) (W1 m ρ c (Proc.devRef .tc main_arg3)) = _
    rw [arg0_at1, arg3_at1]))

/-! ## After the rectifier: the hidden layer -/

theorem hidden_at4 : W4 m ρ c (Proc.devRef .tc main_v46)
    = hidden (m ((c : Thread nD τ).loc main_arg1)) (m ((c : Thread nD τ).loc main_arg2))
        (matProd (n := 10000) (k := 512) (b := 512) (m ((c : Thread nD τ).loc main_arg0)) (m ((c : Thread nD τ).loc main_arg3))) := by
  show StableHlo.after hostOps1_1 (StableHlo.after hostOps1 (W2 m ρ c)) (Proc.devRef .tc main_v46) = _
  after_results_simp
  rw [src_at2, dst_at2, norm_at2, self_at2, prod_at2]
  rfl

/-! ## After the second region: hidden · W2 -/

theorem prod_at5 : W5 m ρ c (Proc.devRef .tc main_v47)
    = matProd (n := 10000) (k := 512) (b := 256)
        (hidden (m ((c : Thread nD τ).loc main_arg1)) (m ((c : Thread nD τ).loc main_arg2))
          (matProd (n := 10000) (k := 512) (b := 512) (m ((c : Thread nD τ).loc main_arg0)) (m ((c : Thread nD τ).loc main_arg3))))
        (m ((c : Thread nD τ).loc main_arg4)) :=
  (W5_arr m ρ c 2).trans ((product1 (V4 m ρ) c).trans (by
    show matProd (n := 10000) (k := 512) (b := 256) (W4 m ρ c (Proc.devRef .tc main_v46)) (W4 m ρ c (Proc.devRef .tc main_arg4)) = _
    rw [hidden_at4, W4_eq_W1 m ρ c main_arg4 (by decide) (by not_written) (by not_written), arg4_at1]))

/-! ## The last stretch: the result -/

/-- The result buffer at the last boundary is the network of the five arguments. -/
theorem kernel_result : W6 m ρ c (Proc.devRef .tc main_v64)
    = network (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps2 (W5 m ρ c) (Proc.devRef .tc main_v64) = _
  after_results_simp
  rw [W5_eq_W1 m ρ c main_v1 (by decide) (by decide) (by not_written) (by not_written),
    W5_eq_W1 m ρ c main_v3 (by decide) (by decide) (by not_written) (by not_written),
    W5_eq_W1 m ρ c main_v25 (by decide) (by decide) (by not_written) (by not_written),
    W5_eq_W1 m ρ c main_v27 (by decide) (by decide) (by not_written) (by not_written),
    src_at1, dst_at1, norm_at1, self_at1, prod_at5]
  unfold network
  rw [hostDot512, hostDot256]
  rfl

end Cert.KernelIdeal.Hand

end
-- ==== Proof.RefNetwork.lean ====
/-
  The reference program computes the network of `GraphConv`: its run ends with the result array at the composed
  term of its host operations, and that term is `network` of the five argument arrays — the reference spells the
  degree, the edge weights' normalisation and the self-loop weight once per layer, with the same operations each time.
-/
import proofs.«158690_j36429912604731_1_alg».proof.Proof.Gen.ReferenceIdeal.Run
import proofs.«158690_j36429912604731_1_alg».proof.Proof.GraphConv

noncomputable section

namespace Cert.GraphConv

open Idealize.ShloMosaic Idealize.ShloMosaic.TcCoe Idealize.SL.Sem
open Cert.ReferenceIdeal Cert.ReferenceIdeal.Gen

variable {F : FTy → Type} [FloatOps F]

set_option maxRecDepth 8192 in
/-- The reference's result term is the network of its arguments. -/
theorem reference_result (m : (ℓ : Loc nD τ sig) → Buf (Elt F) ℓ) (c : Dev nD) :
    Cert.ReferenceIdeal.Value.res_out0 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  show Cert.ReferenceIdeal.Value.res_main_v88 m c = _
  unfold Cert.ReferenceIdeal.Value.res_main_v88
  rfl

end Cert.GraphConv

end
-- ==== Proof.lean ====
/-
  A two-layer graph convolution on 10000 nodes and 160000 weighted edges: the kernel against its reference, on the
  extended reals.

  Both programs compute  propagate ((relu (propagate (x · W1))) · W2)  (`Proof/GraphConv.lean`), where one
  propagation sends every edge's source row, scaled by the edge's normalised weight, to the edge's destination, adds
  what arrives, and adds each node's own row divided by its degree.  They differ in two ways only.  The kernel forms
  each of the two matrix products in ten blocks of 1000 rows on the matrix unit, from operands rounded to bf16, where
  the reference contracts the whole operands at once: on the extended reals the rounding is the identity and the ten
  blocks are the rows of the one product, entry (r, q) the sum over j of left(r, j) · right(j, q) on both sides
  (`Proof/RowBlocks.lean`).  And the kernel computes the degrees, the normalised edge weights and the self-loop
  weights once and reads them again in the second layer, where the reference computes them once per layer by the same
  operations (`Proof/KernelNetwork.lean`, `Proof/RefNetwork.lean`).  No step uses a law that fails at an infinity —
  the two sides apply the same operations to the same values — so the inputs' finiteness is never opened.

  The kernel's idealization rewrote no operation, so there is nothing to preserve beyond reading its text on the
  extended reals.
-/
import proofs.«158690_j36429912604731_1_alg».proof.Defs
import proofs.«158690_j36429912604731_1_alg».proof.Proof.Gen.Kernel
import proofs.«158690_j36429912604731_1_alg».proof.Proof.Gen.Kernel.Skeleton
import proofs.«158690_j36429912604731_1_alg».proof.Proof.Gen.Kernel.Launch
import proofs.«158690_j36429912604731_1_alg».proof.Proof.Gen.Kernel.Points
import proofs.«158690_j36429912604731_1_alg».proof.Proof.Gen.Kernel.Frame
import proofs.«158690_j36429912604731_1_alg».proof.Proof.Gen.KernelIdeal
import proofs.«158690_j36429912604731_1_alg».proof.Proof.Gen.KernelIdeal.Skeleton
import proofs.«158690_j36429912604731_1_alg».proof.Proof.Gen.KernelIdeal.Launch
import proofs.«158690_j36429912604731_1_alg».proof.Proof.Gen.KernelIdeal.Points
import proofs.«158690_j36429912604731_1_alg».proof.Proof.Gen.KernelIdeal.Frame
import proofs.«158690_j36429912604731_1_alg».proof.Proof.Gen.ReferenceIdeal
import proofs.«158690_j36429912604731_1_alg».proof.Proof.Gen.Pre_finite_inputs
import proofs.«158690_j36429912604731_1_alg».proof.Proof.Gen.ReferenceIdeal.Run
import proofs.«158690_j36429912604731_1_alg».proof.Proof.Gen.ReferenceIdeal.Read
import proofs.«158690_j36429912604731_1_alg».proof.Proof.KernelRun
import proofs.«158690_j36429912604731_1_alg».proof.Proof.KernelNetwork
import proofs.«158690_j36429912604731_1_alg».proof.Proof.RefNetwork
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel's run: its result array ends at the network of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v64)
          = Cert.GraphConv.network (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨(h c).1.trans (Cert.KernelIdeal.Hand.kernel_result m ρ c), (h c).2⟩)
    (Cert.KernelIdeal.Hand.run_result m ρ)

/-- From memories agreeing on the arguments both programs end with the network of those arguments in their result
    arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  refine (Cert.GraphConv.reference_result m' c).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
